-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S_S_d : S_.ReducesTo [] S_

variable [Facts]

def fn_part1 {F : FTy → Type} [FloatOps F] (main_arg4 : FVec F S256 .f32) (main_arg5 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S10000x256 .f32) (main_arg1 : FVec F S10000x10000 .f32) (main_arg2 : FVec F S256x256 .f32) (main_arg3 : FVec F S256 .f32) (main_arg4 : FVec F S256 .f32) (main_arg5 : FVec F S_ .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩
abbrev S1x256 : Shape := ⟨2, ![1, 256]⟩
abbrev S1x1 : Shape := ⟨2, ![1, 1]⟩
abbrev S400x10000 : Shape := ⟨2, ![400, 10000]⟩
abbrev S400x256 : Shape := ⟨2, ![400, 256]⟩

abbrev nBuf : Space → Nat
  | .hbm => 10
  | .vmem => 10
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S1x256, .f32⟩
  | .hbm, ⟨7, _⟩ => ⟨S1x256, .f32⟩
  | .hbm, ⟨8, _⟩ => ⟨S1x1, .f32⟩
  | .hbm, ⟨9, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S1x256, .f32⟩
  | .local _ .vmem, ⟨3, _⟩ => ⟨S400x10000, .f32⟩
  | .local _ .vmem, ⟨4, _⟩ => ⟨S400x10000, .f32⟩
  | .local _ .vmem, ⟨5, _⟩ => ⟨S1x256, .f32⟩
  | .local _ .vmem, ⟨6, _⟩ => ⟨S1x1, .f32⟩
  | .local _ .vmem, ⟨7, _⟩ => ⟨S400x256, .f32⟩
  | .local _ .vmem, ⟨8, _⟩ => ⟨S400x256, .f32⟩
  | .local _ .vmem, ⟨9, _⟩ => ⟨S10000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  shapeCasts_S_S1x1 : S_.ShapeCasts S1x1
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  shapeCasts_S10000x256_S10000x256 : S10000x256.ShapeCasts S10000x256
  inb_S400x10000_S400x10000_0_0 : ∀ a, (![0, 0] : Fin 2 → Nat) a + S400x10000.size a ≤ S400x10000.size a
  h_S400x10000 : 0 < S400x10000.numel
  broadcasts_S1x256_S400x256 : S1x256.Broadcasts S400x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x256_S400x256_0_0 : ∀ a, (![0, 0] : Fin 2 → Nat) a + S400x256.size a ≤ S400x256.size a
  h_S400x256 : 0 < S400x256.numel
  dot_S10000x256_S256x256_S10000x256_1_1_0_0_n_n_wf : DotDims.WF S10000x256 S256x256 S10000x256 [1] [1] [0] [0] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S10000x256.size a
  hwx0_6 : ∀ i : grid0.Coords, EltTy.bits .f32 = 32 ∨ (Rect.block (s := S10000x256) S400x256.size (cc0_transform_6 i) (hinb0_6 i)).WholeWords (EltTy.packing .f32)

variable [Facts₀]

def dot_S10000x256_S256x256_S10000x256_1_1_0_0_n_n : DotDims S10000x256 S256x256 S10000x256 where
  lhsContracting := [1]
  rhsContracting := [1]
  lhsNonContracting := [0]
  rhsNonContracting := [0]
  lhsBatch := []
  rhsBatch := []
  wf := dot_S10000x256_S256x256_S10000x256_1_1_0_0_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S400x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩
abbrev S1x256 : Shape := ⟨2, ![1, 256]⟩

abbrev nBuf : Space → Nat
  | .hbm => 21
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S256x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .i1⟩
  | .hbm, ⟨18, _⟩ => ⟨S10000x256, .f32⟩
  | .hbm, ⟨19, _⟩ => ⟨S10000x256, .f32⟩
  | .hbm, ⟨20, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KernelCases.lean ====
/-
  What one run of the kernel body leaves behind, in each of its two control cases, as values.

  The body has one conditional, taken at the grid's first point only. There (case A) it computes the dense layer from
  the three blocks it loads and stores it, whole, into the scratch buffer; then, in both cases, it loads the scratch
  buffer back, multiplies the adjacency block into it, adds the bias row, applies the rectifier and stores the result,
  whole, into the output block. So:

    case A leaves in the scratch buffer   the dense layer of the loaded blocks,
           and in the output block         the aggregation over that dense layer (the load after the store reads it);
    case B leaves the scratch buffer as it found it,
           and in the output block         the aggregation over what the scratch buffer held.

  Each buffer is covered by a single store at offset zero of its whole extent, so reading the stores back is reading
  that one stored value; each load is of a whole buffer at offset zero, so it reads the buffer's contents.
  Nothing here depends on what a float is.
-/
import proofs.«119507_g38517266711067_cont_8to1_b_469_14_alg».proof.Proof.Gen.KernelIdeal.Frame
import Idealize.ShloMosaic.Lib.Pipeline.Value
import Idealize.ShloMosaic.Lib.Tactic

noncomputable section

namespace Cert.GcnKernel

open Cert.KernelIdeal Cert.KernelIdeal.Gen Idealize.ShloMosaic Idealize.ShloMosaic.TcCoe Idealize.SL.Sem

variable {F : FTy → Type} [FloatOps F]

/-- Offset zero on both axes. -/
theorem hz : (![0, 0] : Fin 2 → Nat) = fun _ => 0 := funext fun a => by fin_cases a <;> rfl

/-- Case A, the scratch buffer: the dense layer of the three loaded blocks. -/
theorem scratch_A (c : Dev nD) (i : grid0.Coords) (a1 : Memref sig .tc .vmem S10000x256 .f32) (h1 : a1.IsWhole) (a2 : Memref sig .tc .vmem S256x256 .f32) (h2 : a2.IsWhole) (a3 : Memref sig .tc .vmem S1x256 .f32) (h3 : a3.IsWhole) (a4 : Memref sig .tc .vmem S400x10000 .f32) (h4 : a4.IsWhole) (a5 : Memref sig .tc .vmem S1x256 .f32) (h5 : a5.IsWhole) (a6 : Memref sig .tc .vmem S1x1 .f32) (h6 : a6.IsWhole) (a7 : Memref sig .tc .vmem S400x256 .f32) (h7 : a7.IsWhole) (a8 : Memref sig .tc .vmem S10000x256 .f32) (h8 : a8.IsWhole) (hc : cond0_0 i)
    (x0 : Vec F S10000x256 .f32) (x1 : Vec F S256x256 .f32) (x2 : Vec F S1x256 .f32) (x3 : Vec F S400x10000 .f32) (x4 : Vec F S1x256 .f32) (x5 : Vec F S1x1 .f32) :
    sout0_A_0 c i a1 h1 a2 h2 a3 h3 a4 h4 a5 h5 a6 h6 a7 h7 a8 h8 hc x0 x1 x2 x3 x4 x5 = k0_pay1 x0 x1 x2 := by
  unfold sout0_A_0
  rw [View.read_writes_eq_canon _ _ _ (scover0_A_0 c i a1 h1 a2 h2 a3 h3 a4 h4 a5 h5 a6 h6 a7 h7 a8 h8 hc x0 x1 x2 x3 x4 x5)]
  unfold kernelRun0_A
  dsimp only
  sl_unfold_words
  rw [View.canon_unit_zero hz]
  simp only [View.readAt_eq_ld, h1.read_unread, h2.read_unread, h3.read_unread, View.ld_unit_zero (S := S10000x256) hz,
    View.ld_unit_zero (S := S256x256) hz, View.ld_unit_zero (S := S1x256) hz]

/-- Case A, the output block: the aggregation over the dense layer just stored — the load of the scratch buffer
    comes after the store that covers it, and reads that store's value. -/
theorem out_A (c : Dev nD) (i : grid0.Coords) (a1 : Memref sig .tc .vmem S10000x256 .f32) (h1 : a1.IsWhole) (a2 : Memref sig .tc .vmem S256x256 .f32) (h2 : a2.IsWhole) (a3 : Memref sig .tc .vmem S1x256 .f32) (h3 : a3.IsWhole) (a4 : Memref sig .tc .vmem S400x10000 .f32) (h4 : a4.IsWhole) (a5 : Memref sig .tc .vmem S1x256 .f32) (h5 : a5.IsWhole) (a6 : Memref sig .tc .vmem S1x1 .f32) (h6 : a6.IsWhole) (a7 : Memref sig .tc .vmem S400x256 .f32) (h7 : a7.IsWhole) (a8 : Memref sig .tc .vmem S10000x256 .f32) (h8 : a8.IsWhole) (hc : cond0_0 i)
    (x0 : Vec F S10000x256 .f32) (x1 : Vec F S256x256 .f32) (x2 : Vec F S1x256 .f32) (x3 : Vec F S400x10000 .f32) (x4 : Vec F S1x256 .f32) (x5 : Vec F S1x1 .f32) :
    out0_A_6 c i a1 h1 a2 h2 a3 h3 a4 h4 a5 h5 a6 h6 a7 h7 a8 h8 hc x0 x1 x2 x3 x4 x5 = k0_pay2 x3 (k0_pay1 x0 x1 x2) x4 x5 := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_unit_zero hz, View.readCov_unit_zero (S := S10000x256) _ hz]
  simp only [View.readAt_eq_ld, h1.read_unread, h2.read_unread, h3.read_unread, h4.read_unread, h5.read_unread,
    h6.read_unread, View.ld_unit_zero (S := S400x10000) hz, View.ld_unit_zero (S := S10000x256) hz,
    View.ld_unit_zero (S := S256x256) hz, View.ld_unit_zero (S := S1x256) hz, View.ld_unit_zero (S := S1x1) hz]

/-- Case B, the output block: the aggregation over what the scratch buffer held when the point began. -/
theorem out_B (c : Dev nD) (i : grid0.Coords) (a1 : Memref sig .tc .vmem S10000x256 .f32) (h1 : a1.IsWhole) (a2 : Memref sig .tc .vmem S256x256 .f32) (h2 : a2.IsWhole) (a3 : Memref sig .tc .vmem S1x256 .f32) (h3 : a3.IsWhole) (a4 : Memref sig .tc .vmem S400x10000 .f32) (h4 : a4.IsWhole) (a5 : Memref sig .tc .vmem S1x256 .f32) (h5 : a5.IsWhole) (a6 : Memref sig .tc .vmem S1x1 .f32) (h6 : a6.IsWhole) (a7 : Memref sig .tc .vmem S400x256 .f32) (h7 : a7.IsWhole) (a8 : Memref sig .tc .vmem S10000x256 .f32) (h8 : a8.IsWhole) (hc : ¬cond0_0 i)
    (x0 : Vec F S10000x256 .f32) (x1 : Vec F S256x256 .f32) (x2 : Vec F S1x256 .f32) (x3 : Vec F S400x10000 .f32) (x4 : Vec F S1x256 .f32) (x5 : Vec F S1x1 .f32) (xs0 : Vec F S10000x256 .f32) :
    out0_B_6 c i a1 h1 a2 h2 a3 h3 a4 h4 a5 h5 a6 h6 a7 h7 a8 h8 hc x0 x1 x2 x3 x4 x5 xs0 = k0_pay2 x3 xs0 x4 x5 := by
  unfold out0_B_6
  rw [View.read_writes_eq_canon _ _ _ (cover0_B_6 c i a1 h1 a2 h2 a3 h3 a4 h4 a5 h5 a6 h6 a7 h7 a8 h8 hc x0 x1 x2 x3 x4 x5 xs0)]
  unfold kernelRun0_B
  dsimp only
  rw [View.canon_unit_zero hz]
  simp only [View.readAt_eq_ld, h4.read_unread, h5.read_unread, h6.read_unread, h8.read_unread,
    View.ld_unit_zero (S := S400x10000) hz, View.ld_unit_zero (S := S10000x256) hz, View.ld_unit_zero (S := S1x256) hz,
    View.ld_unit_zero (S := S1x1) hz]

end Cert.GcnKernel

end
-- ==== Proof.KernelPoints.lean ====
/-
  The kernel's run point by point: which part of each array a point's blocks are, what the scratch buffer holds after
  every point, and what each point leaves in its output block.

  The grid has 25 points. Five of the seven windows (node features, weights, the two bias rows, the slope) have a
  block that is their whole array, at block index (0, 0) at every point; the adjacency window's block at point t is
  rows 400·t … 400·t + 399, all columns; the output window's block at point t is the same rows of the result.

  The scratch buffer is written at the first point only, with the dense layer of whole arrays, and every later point
  leaves it alone: so after EVERY point it holds that one array (induction on the point). Each point then leaves in
  its output block the aggregation of its adjacency block over that array.
-/
import proofs.«119507_g38517266711067_cont_8to1_b_469_14_alg».proof.Proof.KernelCases
import Idealize.ShloMosaic.Lib.ValueIdx

noncomputable section

namespace Cert.GcnKernel

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block index of each window at a point, axis by axis. -/
structure BlockIndices (t : Fin cfg0.N) : Prop where
  w0 : win0_0.index t (0 : Fin 2) = 0 ∧ win0_0.index t (1 : Fin 2) = 0
  w1 : win0_1.index t (0 : Fin 2) = 0 ∧ win0_1.index t (1 : Fin 2) = 0
  w2 : win0_2.index t (0 : Fin 2) = 0 ∧ win0_2.index t (1 : Fin 2) = 0
  w3 : win0_3.index t (0 : Fin 2) = t.val ∧ win0_3.index t (1 : Fin 2) = 0
  w4 : win0_4.index t (0 : Fin 2) = 0 ∧ win0_4.index t (1 : Fin 2) = 0
  w5 : win0_5.index t (0 : Fin 2) = 0 ∧ win0_5.index t (1 : Fin 2) = 0
  w6 : win0_6.index t (0 : Fin 2) = t.val ∧ win0_6.index t (1 : Fin 2) = 0

/-- The printed index maps, decided over the 25 points. -/
theorem idx_table : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

theorem idx_facts (t : Fin cfg0.N) : BlockIndices t :=
  let ⟨a0, a1, a2, a3, a4, a5, a6⟩ := idx_table t
  ⟨a0, a1, a2, a3, a4, a5, a6⟩

/-! ## The blocks -/

/-- The node-feature window's block is its whole array, at every point. -/
theorem blk0 (c : Dev nD) (t : Fin cfg0.N) : (iblk m c 0 t : Vec F S10000x256 .f32) = V m c main_arg0 := by
  have e := idx_facts t
  funext y
  unfold iblk
  rw [View.read_apply]
  show V m c main_arg0 _ = V m c main_arg0 y
  congr 1
  funext a
  apply Fin.ext
  match a with
  | ⟨0, _⟩ => show win0_0.index t (0 : Fin 2) * 10000 + 1 * (y 0).val = (y 0).val; rw [e.w0.1]; omega
  | ⟨1, _⟩ => show win0_0.index t (1 : Fin 2) * 256 + 1 * (y 1).val = (y 1).val; rw [e.w0.2]; omega

/-- The weight window's block is its whole array. -/
theorem blk1 (c : Dev nD) (t : Fin cfg0.N) : (iblk m c 1 t : Vec F S256x256 .f32) = V m c main_arg2 := by
  have e := idx_facts t
  funext y
  unfold iblk
  rw [View.read_apply]
  show V m c main_arg2 _ = V m c main_arg2 y
  congr 1
  funext a
  apply Fin.ext
  match a with
  | ⟨0, _⟩ => show win0_1.index t (0 : Fin 2) * 256 + 1 * (y 0).val = (y 0).val; rw [e.w1.1]; omega
  | ⟨1, _⟩ => show win0_1.index t (1 : Fin 2) * 256 + 1 * (y 1).val = (y 1).val; rw [e.w1.2]; omega

/-- The first bias row's block is its whole array. -/
theorem blk2 (c : Dev nD) (t : Fin cfg0.N) : (iblk m c 2 t : Vec F S1x256 .f32) = V m c main_v0 := by
  have e := idx_facts t
  funext y
  unfold iblk
  rw [View.read_apply]
  show V m c main_v0 _ = V m c main_v0 y
  congr 1
  funext a
  apply Fin.ext
  match a with
  | ⟨0, _⟩ => show win0_2.index t (0 : Fin 2) * 1 + 1 * (y 0).val = (y 0).val; rw [e.w2.1]; omega
  | ⟨1, _⟩ => show win0_2.index t (1 : Fin 2) * 256 + 1 * (y 1).val = (y 1).val; rw [e.w2.2]; omega

/-- The second bias row's block is its whole array. -/
theorem blk4 (c : Dev nD) (t : Fin cfg0.N) : (iblk m c 4 t : Vec F S1x256 .f32) = V m c main_v1 := by
  have e := idx_facts t
  funext y
  unfold iblk
  rw [View.read_apply]
  show V m c main_v1 _ = V m c main_v1 y
  congr 1
  funext a
  apply Fin.ext
  match a with
  | ⟨0, _⟩ => show win0_4.index t (0 : Fin 2) * 1 + 1 * (y 0).val = (y 0).val; rw [e.w4.1]; omega
  | ⟨1, _⟩ => show win0_4.index t (1 : Fin 2) * 256 + 1 * (y 1).val = (y 1).val; rw [e.w4.2]; omega

/-- The slope's block is its whole array. -/
theorem blk5 (c : Dev nD) (t : Fin cfg0.N) : (iblk m c 5 t : Vec F S1x1 .f32) = V m c main_v2 := by
  have e := idx_facts t
  funext y
  unfold iblk
  rw [View.read_apply]
  show V m c main_v2 _ = V m c main_v2 y
  congr 1
  funext a
  apply Fin.ext
  match a with
  | ⟨0, _⟩ => show win0_5.index t (0 : Fin 2) * 1 + 1 * (y 0).val = (y 0).val; rw [e.w5.1]; omega
  | ⟨1, _⟩ => show win0_5.index t (1 : Fin 2) * 1 + 1 * (y 1).val = (y 1).val; rw [e.w5.2]; omega

/-- The adjacency window's block at point `t` is rows `400·t + p` of the adjacency array. -/
theorem blk3_apply (c : Dev nD) (t : Fin cfg0.N) (p : Fin 400) (n : Fin 10000) (hp : t.val * 400 + p.val < 10000) :
    (iblk m c 3 t : Vec F S400x10000 .f32) (ix2 p n)
      = (V m c main_arg1 : Vec F S10000x10000 .f32) (ix2 (⟨t.val * 400 + p.val, hp⟩ : Fin 10000) n) := by
  have e := idx_facts t
  unfold iblk
  rw [View.read_apply]
  show V m c main_arg1 _ = V m c main_arg1 _
  congr 1
  funext a
  apply Fin.ext
  match a with
  | ⟨0, _⟩ => show win0_3.index t (0 : Fin 2) * 400 + 1 * p.val = t.val * 400 + p.val; rw [e.w3.1]; omega
  | ⟨1, _⟩ => show win0_3.index t (1 : Fin 2) * 10000 + 1 * n.val = n.val; rw [e.w3.2]; omega

/-! ## The scratch buffer, and each point's output block -/

/-- The dense layer of the arrays the region finds: what the first point stores into the scratch buffer. -/
def feats (c : Dev nD) : Vec F S10000x256 .f32 :=
  k0_pay1 (V m c main_arg0) (V m c main_arg2) (V m c main_v0)

/-- After EVERY point the scratch buffer holds the dense layer: the first point stores it, no later point stores there. -/
theorem scratch_eq (c : Dev nD) : ∀ (n : ℕ) (h : n < cfg0.N), (outsAt0 m c n h).2 = feats m c
  | 0, h => by
    rw [outsAt0_A m c ⟨0, h⟩ rfl]
    dsimp only
    refine (scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩)).trans ?_
    rw [blk0 m c ⟨0, h⟩, blk1 m c ⟨0, h⟩, blk2 m c ⟨0, h⟩]
    rfl
  | n + 1, h => by
    have hN : cfg0.N = 25 := N_0
    have hB : ¬(⟨n + 1, h⟩ : Fin cfg0.N).val % 25 = 0 := by dsimp only; omega
    rw [outsAt0_B m c ⟨n + 1, h⟩ hB]
    show (outsAt0 m c n _).2 = _
    exact scratch_eq c n _

/-- What point `t` leaves in its output block: the aggregation of its adjacency block over the dense layer. -/
theorem out_eq (c : Dev nD) (t : Fin cfg0.N) :
    (outsAt0 m c t.val t.isLt).1 = k0_pay2 (iblk m c 3 t) (feats m c) (V m c main_v1) (V m c main_v2) := by
  by_cases h0 : t.val % 25 = 0
  · rw [outsAt0_A m c t h0]
    dsimp only
    refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)).trans ?_
    rw [blk0 m c t, blk1 m c t, blk2 m c t, blk4 m c t, blk5 m c t]
    rfl
  · rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) _).trans ?_
    rw [scratch_eq m c _ _, blk4 m c t, blk5 m c t]

end Cert.GcnKernel

end
-- ==== Proof.GcnSpec.lean ====
/-
  One graph-convolution layer as ONE function of its six argument arrays, entry by entry, on the extended reals.

  With node features seq [10000, 256], adjacency adj [10000, 10000], weights W [256, 256], the two bias vectors
  b and β [256] and the rectifier's slope a (a rank-zero array):

    features (n, c) = Σ_k seq (n, k) · W (c, k) + b (c)                      (the dense layer, W used transposed)
    layer (r, c)    = prelu_a ( Σ_n adj (r, n) · features (n, c) + β (c) )   (aggregation over the graph, bias, rectifier)

  where prelu_a y is y where y ≥ 0 and a · y elsewhere. Nothing here is rearranged: the sums are nested exactly as
  written, so no law of the extended reals beyond reading each operation at an entry is needed to recognise a
  program that computes the layer in this order.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- The rectifier with slope `a`: `y` where `y ≥ 0` (an ordered comparison against the zero word), `a · y` elsewhere. -/
def prelu (a y : EReal) : EReal :=
  Scalar.select (FloatOps.cmpf (F := Ideal) (φ := .f32) .oge y (Ideal.ofBits .f32 0x00000000#32)) y (a * y)

/-- The dense layer at node `n`, output feature `c`: the row of `seq` against the row `c` of `W`, plus the bias. -/
def features (seq : FVec Ideal ⟨2, ![10000, 256]⟩ .f32) (W : FVec Ideal ⟨2, ![256, 256]⟩ .f32)
    (b : FVec Ideal ⟨1, ![256]⟩ .f32) (n : Fin 10000) (c : Fin 256) : EReal :=
  (∑ k : Fin 256, seq (ix2 n k) * W (ix2 c k)) + b (ix1 c)

/-- The layer at row `r`, feature `c`. -/
def entry (seq : FVec Ideal ⟨2, ![10000, 256]⟩ .f32) (adj : FVec Ideal ⟨2, ![10000, 10000]⟩ .f32)
    (W : FVec Ideal ⟨2, ![256, 256]⟩ .f32) (b β : FVec Ideal ⟨1, ![256]⟩ .f32) (a : FVec Ideal ⟨0, ![]⟩ .f32)
    (r : Fin 10000) (c : Fin 256) : EReal :=
  prelu (a ix0) ((∑ n : Fin 10000, adj (ix2 r n) * features seq W b n c) + β (ix1 c))

/-- The layer as an array. -/
def layer (seq : FVec Ideal ⟨2, ![10000, 256]⟩ .f32) (adj : FVec Ideal ⟨2, ![10000, 10000]⟩ .f32)
    (W : FVec Ideal ⟨2, ![256, 256]⟩ .f32) (b β : FVec Ideal ⟨1, ![256]⟩ .f32) (a : FVec Ideal ⟨0, ![]⟩ .f32) :
    FVec Ideal ⟨2, ![10000, 256]⟩ .f32 :=
  fun j => entry seq adj W b β a (j 0) (j 1)

theorem layer_apply (seq : FVec Ideal ⟨2, ![10000, 256]⟩ .f32) (adj : FVec Ideal ⟨2, ![10000, 10000]⟩ .f32)
    (W : FVec Ideal ⟨2, ![256, 256]⟩ .f32) (b β : FVec Ideal ⟨1, ![256]⟩ .f32) (a : FVec Ideal ⟨0, ![]⟩ .f32)
    (r : Fin 10000) (c : Fin 256) : layer seq adj W b β a (ix2 r c) = entry seq adj W b β a r c := rfl

end Cert.GcnSpec

end
-- ==== Proof.LibTransDot.lean ====
/-
  GENERAL LEMMA: a product of a matrix with the transpose of another, read at an entry, on the extended reals.

  For dimension numbers that contract both operands' second axes (an M×K matrix times the transpose of an N×K
  matrix, no batch axis), entry (r, c) of the product is the sum over k : Fin K of left (r, k) · right (c, k); a
  `tpu.matmul` into the zero accumulator is that sum.
-/
import Idealize.ShloMosaic.PureOps.Ideal.Laws
import Idealize.ShloMosaic.Lib.ValueIdx

noncomputable section

namespace Idealize.ShloMosaic.TransDot

open Idealize.ShloMosaic Idealize.ShloMosaic.ValueIdx

variable {M K N : Nat}

/-- The left operand is read on its row axis at the entry's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand is read on its row axis at the entry's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The contraction, re-indexed by the one contracted coordinate. -/
theorem sum_eq (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (j : (⟨2, ![M, N]⟩ : Shape).Idx) :
    ∑ q : D.contr.Idx, l (D.lhsIdx j q) * r (D.rhsIdx j q) = ∑ k : Fin K, l (ix2 (j 0) k) * r (ix2 (j 1) k) := by
  subst hD
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact ((DotDims.transposedRhs M K N).rhsIdx_val_of_single rfl _ _).trans hk)
  exact congrArg₂ (fun x y => l x * r y) el er

/-- A `tpu.matmul` of such a product into the zero accumulator at an entry. -/
theorem matmul_zero_apply {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 (j 1) k) := by
  simp only [matmul]
  rw [Ideal.matmul_constant_zero_apply]
  exact sum_eq D hD l r j

end Idealize.ShloMosaic.TransDot

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.KernelPayloads.lean ====
/-
  The kernel body's two stored values read at an entry, on the extended reals.

  The value stored into the scratch buffer, at (n, c): the product of the node-feature block with the transpose of the
  weight block, into the zero accumulator, is Σ_k x (n, k) · w (c, k); the bias row [1, 256] broadcast down the rows
  reads its entry c. That is the dense layer of GcnSpec.lean with the bias read from a one-row matrix.

  The value stored into the output block, at (p, c): the product of the adjacency block with the scratch contents, into
  the zero accumulator, is Σ_n A (p, n) · s (n, c); the second bias row reads its entry c; the comparison is against
  the zero word broadcast everywhere; the slope is entry (0, 0) of a [1, 1] block, broadcast everywhere. That is the
  rectifier of GcnSpec.lean applied to the sum.
-/
import proofs.«119507_g38517266711067_cont_8to1_b_469_14_alg».proof.Proof.Gen.KernelIdeal.Skeleton
import proofs.«119507_g38517266711067_cont_8to1_b_469_14_alg».proof.Proof.GcnSpec
import proofs.«119507_g38517266711067_cont_8to1_b_469_14_alg».proof.Proof.LibTransDot
import proofs.«119507_g38517266711067_cont_8to1_b_469_14_alg».proof.Proof.LibPlainDot
import Idealize.ShloMosaic.Lib.ValueLayout
import Idealize.ShloMosaic.Lib.Pipeline.Value

noncomputable section

namespace Cert.GcnKernel

open Cert.KernelIdeal Cert.KernelIdeal.Gen Idealize.ShloMosaic Idealize.ShloMosaic.ValueIdx Cert.GcnSpec

/-- The scratch payload at (n, c): the row n of the features against the row c of the weights, plus the bias row at c. -/
theorem dense_apply (v18 : FVec Ideal S10000x256 .f32) (v19 : FVec Ideal S256x256 .f32) (v21 : FVec Ideal S1x256 .f32)
    (n : Fin 10000) (c : Fin 256) :
    k0_pay1 (F := Ideal) v18 v19 v21 (ix2 n c)
      = (∑ k : Fin 256, v18 (ix2 n k) * v19 (ix2 c k)) + v21 (ix2 (0 : Fin 1) c) := by
  unfold k0_pay1
  simp only [shapeCast_self]
  exact congrArg₂ (fun s t : EReal => s + t)
    (TransDot.matmul_zero_apply dot_S10000x256_S256x256_S10000x256_1_1_0_0_n_n rfl none v18 v19 (ix2 n c))
    (broadcastTo_1b_ab_apply v21 broadcasts_S1x256_S10000x256 n c)

/-- Entry (0, 0) of a [1, 1] block. -/
theorem extract_one (v12 : FVec Ideal S1x1 .f32) :
    extractAt ![0, 0] v12 inpos_S1x1_p0_0 = v12 (ix2 (0 : Fin 1) (0 : Fin 1)) :=
  congrArg v12 (funext fun a => Fin.ext (by match a with | ⟨0, _⟩ => rfl | ⟨1, _⟩ => rfl))

/-- The output payload at (p, c): the rectifier, with the slope at (0, 0), of the row p of the adjacency block against
    the column c of the scratch contents, plus the bias row at c. -/
theorem aggregate_apply (v3 : FVec Ideal S400x10000 .f32) (v4 : FVec Ideal S10000x256 .f32) (v6 : FVec Ideal S1x256 .f32)
    (v12 : FVec Ideal S1x1 .f32) (p : Fin 400) (c : Fin 256) :
    k0_pay2 (F := Ideal) v3 v4 v6 v12 (ix2 p c)
      = prelu (v12 (ix2 (0 : Fin 1) (0 : Fin 1)))
          ((∑ n : Fin 10000, v3 (ix2 p n) * v4 (ix2 n c)) + v6 (ix2 (0 : Fin 1) c)) := by
  unfold k0_pay2
  simp only [shapeCast_self]
  have hsum : addf (matmul dot_S400x10000_S10000x256_S400x256_1_0_0_1_n_n none v3 v4 (constant (F := Ideal) S400x256 .f32 0x00000000#32))
      (broadcastTo S400x256 v6 broadcasts_S1x256_S400x256) (ix2 p c)
      = (∑ n : Fin 10000, v3 (ix2 p n) * v4 (ix2 n c)) + v6 (ix2 (0 : Fin 1) c) :=
    congrArg₂ (fun s t : EReal => s + t)
      (PlainDot.matmul_zero_apply dot_S400x10000_S10000x256_S400x256_1_0_0_1_n_n rfl none v3 v4 (ix2 p c))
      (broadcastTo_1b_ab_apply v6 broadcasts_S1x256_S400x256 p c)
  show Scalar.select (FloatOps.cmpf .oge (addf (matmul dot_S400x10000_S10000x256_S400x256_1_0_0_1_n_n none v3 v4 (constant (F := Ideal) S400x256 .f32 0x00000000#32))
        (broadcastTo S400x256 v6 broadcasts_S1x256_S400x256) (ix2 p c)) (Ideal.ofBits .f32 0x00000000#32))
      (addf (matmul dot_S400x10000_S10000x256_S400x256_1_0_0_1_n_n none v3 v4 (constant (F := Ideal) S400x256 .f32 0x00000000#32))
        (broadcastTo S400x256 v6 broadcasts_S1x256_S400x256) (ix2 p c))
      (extractAt ![0, 0] v12 inpos_S1x1_p0_0 * addf (matmul dot_S400x10000_S10000x256_S400x256_1_0_0_1_n_n none v3 v4 (constant (F := Ideal) S400x256 .f32 0x00000000#32))
        (broadcastTo S400x256 v6 broadcasts_S1x256_S400x256) (ix2 p c)) = _
  rw [hsum, extract_one]
  rfl

end Cert.GcnKernel

end
-- ==== Proof.KernelArray.lean ====
/-
  The kernel's result array is the layer of GcnSpec.lean, on the extended reals.

  Before the region the host only re-lays three arguments: the two bias vectors [256] become rows [1, 256] and the
  rank-zero slope becomes a [1, 1] matrix; entry (0, k) of such a row is entry k of the vector, and the one entry of the
  [1, 1] matrix is the slope. With that, the dense layer the first point leaves in the scratch buffer is, entry by
  entry, the specification's `features` of the arguments.

  Point t writes back rows 400·t … 400·t + 399 of the result: at (400·t + p, c) the rectifier of
  Σ_n adj (400·t + p, n) · features (n, c) + β (c) — the adjacency block's row p IS row 400·t + p of the adjacency
  array. That is the specification's entry at that row. Every row r lies in the block of point r / 400, and all 25
  points write back, so the blocks cover the array and it ends holding the layer.
-/
import proofs.«119507_g38517266711067_cont_8to1_b_469_14_alg».proof.Proof.Gen.KernelIdeal.Value
import proofs.«119507_g38517266711067_cont_8to1_b_469_14_alg».proof.Proof.KernelPoints
import proofs.«119507_g38517266711067_cont_8to1_b_469_14_alg».proof.Proof.KernelPayloads
import Idealize.ShloMosaic.Lib.StableHlo.Run

noncomputable section

namespace Cert.GcnKernel

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (m : (ℓ : Loc nD τ sig) → Buf (Elt Ideal) ℓ) (ρ : Dev nD → PrngReg)

/-! ## The host's re-laying of the small arguments -/

/-- A cast out of rank zero reads the one entry there is. -/
theorem cast_of_scalar (x : FVec Ideal S_ .f32) (h : S_.ShapeCasts S1x1) (j : S1x1.Idx) :
    shapeCast S1x1 x h j = x ix0 := by
  unfold shapeCast
  exact congrArg x (eq_ix0 _)

/-- The first bias row the region finds, at (0, k): the first bias vector at k. -/
theorem bias_row0 (c : Dev nD) (k : Fin 256) :
    (V m c main_v0 : FVec Ideal S1x256 .f32) (ix2 (0 : Fin 1) k) = (m ((c : Thread nD τ).loc main_arg3) : FVec Ideal S256 .f32) (ix1 k) := by
  have e : (V m c main_v0 : FVec Ideal S1x256 .f32) = shapeCast S1x256 (m ((c : Thread nD τ).loc main_arg3)) shapeCasts_S256_S1x256 := by
    dsimp only [Gen.V, Gen.hostOps0]; after_results; rfl
  rw [e]
  exact shapeCast_a_1a_apply _ shapeCasts_S256_S1x256 0 k

/-- The second bias row the region finds, at (0, k): the second bias vector at k. -/
theorem bias_row1 (c : Dev nD) (k : Fin 256) :
    (V m c main_v1 : FVec Ideal S1x256 .f32) (ix2 (0 : Fin 1) k) = (m ((c : Thread nD τ).loc main_arg4) : FVec Ideal S256 .f32) (ix1 k) := by
  have e : (V m c main_v1 : FVec Ideal S1x256 .f32) = shapeCast S1x256 (m ((c : Thread nD τ).loc main_arg4)) shapeCasts_S256_S1x256 := by
    dsimp only [Gen.V, Gen.hostOps0]; after_results; rfl
  rw [e]
  exact shapeCast_a_1a_apply _ shapeCasts_S256_S1x256 0 k

/-- The [1, 1] matrix the region finds holds the slope. -/
theorem slope_entry (c : Dev nD) (j : S1x1.Idx) :
    (V m c main_v2 : FVec Ideal S1x1 .f32) j = (m ((c : Thread nD τ).loc main_arg5) : FVec Ideal S_ .f32) ix0 := by
  have e : (V m c main_v2 : FVec Ideal S1x1 .f32) = shapeCast S1x1 (m ((c : Thread nD τ).loc main_arg5)) shapeCasts_S_S1x1 := by
    dsimp only [Gen.V, Gen.hostOps0]; after_results; rfl
  rw [e]
  exact cast_of_scalar _ shapeCasts_S_S1x1 j

/-! ## The result, block by block -/

/-- The layer of the launch arrays: what the result array will hold. -/
abbrev result (c : Dev nD) : Buf (Elt Ideal) ((c : Thread nD τ).loc main_v3) :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The scratch buffer's contents, entry by entry, are the specification's dense layer of the launch arrays. -/
theorem feats_apply (c : Dev nD) (n : Fin 10000) (q : Fin 256) :
    feats m c (ix2 n q)
      = features (m ((c : Thread nD τ).loc main_arg0)) (m ((c : Thread nD τ).loc main_arg2)) (m ((c : Thread nD τ).loc main_arg3)) n q := by
  unfold feats
  rw [V_main_arg0, V_main_arg2]
  refine (dense_apply _ _ _ n q).trans ?_
  unfold features
  rw [bias_row0]

/-- What point `t` writes back is block `t` of the layer. -/
theorem flushed_eq (c : Dev nD) (t : Fin cfg0.N) :
    (dats m 0 c).flushed 6 t = ((cfg0.win 6).blk t).view.read (Elt Ideal) (result m c) := by
  have hN : t.val < 25 := lt_of_lt_of_eq t.isLt (show cfg0.N = 25 from N_0)
  have e := idx_facts t
  rw [Cert.KernelIdeal.Value.flushed6, out_eq]
  funext y
  obtain ⟨p, q, rfl⟩ : ∃ (p : Fin 400) (q : Fin 256), y = ix2 p q := ⟨y 0, y 1, eq_ix2 (n0 := 400) (n1 := 256) y⟩
  have hp : t.val * 400 + p.val < 10000 := by have := p.isLt; omega
  have hemb : ((cfg0.win 6).blk t).view.emb (ix2 p q) = ix2 (⟨t.val * 400 + p.val, hp⟩ : Fin 10000) q := by
    funext a
    apply Fin.ext
    match a with
    | ⟨0, _⟩ => show win0_6.index t (0 : Fin 2) * 400 + 1 * p.val = t.val * 400 + p.val; rw [e.w6.1]; omega
    | ⟨1, _⟩ => show win0_6.index t (1 : Fin 2) * 256 + 1 * q.val = q.val; rw [e.w6.2]; omega
  rw [View.read_apply]
  show k0_pay2 (iblk m c 3 t) (feats m c) (V m c main_v1) (V m c main_v2) (ix2 p q) = result m c (((cfg0.win 6).blk t).view.emb (ix2 p q))
  rw [hemb]
  refine (aggregate_apply _ _ _ _ p q).trans ?_
  show _ = entry _ _ _ _ _ _ (⟨t.val * 400 + p.val, hp⟩ : Fin 10000) q
  unfold entry
  rw [slope_entry, bias_row1]
  refine congrArg (fun s : EReal => prelu _ (s + _)) (Finset.sum_congr rfl fun n _ => ?_)
  rw [blk3_apply m c t p n hp, V_main_arg1, feats_apply]

/-- An index of the result array is in point `t`'s block iff each coordinate is in the block's range on its axis. -/
theorem mem_blk (t : Fin cfg0.N) (i : S10000x256.Idx) :
    i ∈ ((cfg0.win 6).blk t).view.set ↔ ∀ a : Fin 2, win0_6.index t a * S400x256.size a ≤ (i a).val ∧ (i a).val < win0_6.index t a * S400x256.size a + S400x256.size a := by
  show i ∈ ((View.whole main_v3).slice (win0_6.rect t)).set ↔ _
  rw [View.set_slice_whole, Rect.mem_set_unit]
  exact Iff.rfl

/-- Row r lies in the block of point r / 400, which writes back. -/
theorem cover (i : S10000x256.Idx) :
    ∃ t : Fin cfg0.N, (cfg0.win 6).flush t = true ∧ i ∈ ((cfg0.win 6).blk t).view.set := by
  have hN : cfg0.N = 25 := N_0
  have hi0 : (i 0).val < 10000 := (i 0).isLt
  have hi1 : (i 1).val < 256 := (i 1).isLt
  refine ⟨⟨(i 0).val / 400, by omega⟩, flush0_6 _, ?_⟩
  rw [mem_blk]
  have e := idx_facts (⟨(i 0).val / 400, by omega⟩ : Fin cfg0.N)
  intro a
  match a with
  | ⟨0, _⟩ =>
    show win0_6.index _ (0 : Fin 2) * 400 ≤ (i 0).val ∧ (i 0).val < win0_6.index _ (0 : Fin 2) * 400 + 400
    rw [e.w6.1]; dsimp only; omega
  | ⟨1, _⟩ =>
    show win0_6.index _ (1 : Fin 2) * 256 ≤ (i 1).val ∧ (i 1).val < win0_6.index _ (1 : Fin 2) * 256 + 256
    rw [e.w6.2]; omega

/-- So the result array ends holding the layer. -/
theorem final (c : Dev nD) : (dats m 0 c).arrAt 6 cfg0.N = result m c :=
  (dats m 0 c).arrAt_eq_of_cover 6 (result m c) (fun t _ => flushed_eq m c t) cover

/-- The kernel's run, read: the result array at the layer of the launch arrays, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.GcnKernel

end
-- ==== Proof.RefIsLayer.lean ====
/-
  The reference program computes the layer of GcnSpec.lean.

  Its operations, read at an entry (r, c) one after the other: the transpose of W at (k, c) is W (c, k), so the first
  product at (n, c) is Σ_k seq (n, k) · W (c, k); the two broadcasts of b read b (c); the second product at (r, c) is
  Σ_n adj (r, n) · (that sum plus b (c)); the broadcasts of β read β (c); the comparison is against the zero word
  broadcast everywhere, the slope is the rank-zero argument broadcast everywhere, and the select chooses between the
  sum and its multiple: the rectifier.
-/
import proofs.«119507_g38517266711067_cont_8to1_b_469_14_alg».proof.Proof.Gen.ReferenceIdeal.Read
import proofs.«119507_g38517266711067_cont_8to1_b_469_14_alg».proof.Proof.GcnSpec

noncomputable section

namespace Cert.GcnRef

open Cert.ReferenceIdeal Cert.ReferenceIdeal.Read Idealize.ShloMosaic Idealize.ShloMosaic.ValueIdx Cert.GcnSpec

/-- The reference's dense layer (its first product plus the broadcast bias) at (n, c). -/
theorem features_apply (x0 : FVec Ideal S10000x256 .f32) (x2 : FVec Ideal S256x256 .f32) (x3 : FVec Ideal S256 .f32)
    (n : Fin 10000) (c : Fin 256) :
    val_main_v4 (F := Ideal) x0 x2 x3 (ix2 n c) = features x0 x2 x3 n c := by
  rw [val_main_v4_apply, val_main_v1_apply, val_main_v3_apply, val_main_v2_apply]
  unfold features
  refine congrArg₂ (fun s t : EReal => s + t) (Finset.sum_congr rfl fun k _ => ?_) ?_
  · rw [val_main_v0_apply]
    refine congrArg₂ (fun p q => x0 p * x2 q) ?_ ?_
    · exact funext fun a => Fin.ext (by match a with | ⟨0, _⟩ => rfl | ⟨1, _⟩ => rfl)
    · exact funext fun a => Fin.ext (by match a with | ⟨0, _⟩ => rfl | ⟨1, _⟩ => rfl)
  · exact congrArg x3 (funext fun a => Fin.ext (by match a with | ⟨0, _⟩ => rfl))

/-- The reference's result is the layer. -/
theorem result_eq (x0 : FVec Ideal S10000x256 .f32) (x1 : FVec Ideal S10000x10000 .f32) (x2 : FVec Ideal S256x256 .f32)
    (x3 x4 : FVec Ideal S256 .f32) (x5 : FVec Ideal S_ .f32) :
    val_main_v13 (F := Ideal) x0 x1 x2 x3 x4 x5 = layer x0 x1 x2 x3 x4 x5 := by
  funext j
  obtain ⟨r, c, rfl⟩ : ∃ (r : Fin 10000) (c : Fin 256), j = ix2 r c := ⟨j 0, j 1, eq_ix2 j⟩
  have hsum : val_main_v8 (F := Ideal) x0 x1 x2 x3 x4 (ix2 r c)
      = (∑ n : Fin 10000, x1 (ix2 r n) * features x0 x2 x3 n c) + x4 (ix1 c) := by
    rw [val_main_v8_apply, val_main_v5_apply, val_main_v7_apply, val_main_v6_apply]
    refine congrArg₂ (fun s t : EReal => s + t) (Finset.sum_congr rfl fun n _ => ?_) ?_
    · have e1 : lidx_main_v5 (ix2 r c) n = ix2 r n :=
        funext fun a => Fin.ext (by match a with | ⟨0, _⟩ => rfl | ⟨1, _⟩ => rfl)
      have e2 : ridx_main_v5 (ix2 r c) n = ix2 n c :=
        funext fun a => Fin.ext (by match a with | ⟨0, _⟩ => rfl | ⟨1, _⟩ => rfl)
      rw [e1, e2, features_apply]
    · exact congrArg x4 (funext fun a => Fin.ext (by match a with | ⟨0, _⟩ => rfl))
  rw [layer_apply, val_main_v13_apply, val_main_v10_apply, val_main_v12_apply, val_main_v9_apply, val_main_cst_apply,
    val_main_v11_apply, hsum]
  rfl

end Cert.GcnRef

end
-- ==== Proof.lean ====
/-
  A graph-convolution layer computed by a kernel over 25 row blocks, against the same layer written with whole-array
  operations: both are

      out (r, c) = prelu_a ( Σ_n adj (r, n) · ( Σ_k seq (n, k) · W (c, k) + b (c) ) + β (c) ),

  the sums nested in the same order on both sides (Proof/GcnSpec.lean), so that on the extended reals the two results
  agree entry by entry with no rearrangement and no use of the inputs' finiteness.

  The kernel computes the inner dense layer once, at the grid's first point, into a buffer it keeps across the grid;
  every point then multiplies its 400 rows of the adjacency matrix into that buffer, adds the bias and applies the
  rectifier (Proof/KernelCases.lean: what each of the two control cases leaves; Proof/KernelPoints.lean: the kept
  buffer holds the dense layer after every point, by induction; Proof/KernelPayloads.lean: the two stored values at an
  entry; Proof/KernelArray.lean: the 25 blocks cover the result, which is the layer). The reference transposes W,
  multiplies, broadcasts the bias vectors and selects (Proof/RefIsLayer.lean: its result is the layer).

  Reading the kernel over the extended reals changed none of its operations, so the claim that this reading is the
  kernel's sanctioned idealization has nothing to prove. The three runs terminate with their arguments unchanged: the
  two kernels' by the generated frame modules, the reference's by its generated run.
-/
import proofs.«119507_g38517266711067_cont_8to1_b_469_14_alg».proof.Defs
import proofs.«119507_g38517266711067_cont_8to1_b_469_14_alg».proof.Proof.Gen.Kernel
import proofs.«119507_g38517266711067_cont_8to1_b_469_14_alg».proof.Proof.Gen.Kernel.Frame
import proofs.«119507_g38517266711067_cont_8to1_b_469_14_alg».proof.Proof.Gen.KernelIdeal
import proofs.«119507_g38517266711067_cont_8to1_b_469_14_alg».proof.Proof.Gen.KernelIdeal.Frame
import proofs.«119507_g38517266711067_cont_8to1_b_469_14_alg».proof.Proof.Gen.ReferenceIdeal
import proofs.«119507_g38517266711067_cont_8to1_b_469_14_alg».proof.Proof.Gen.KernelIdeal.Value
import proofs.«119507_g38517266711067_cont_8to1_b_469_14_alg».proof.Proof.Gen.ReferenceIdeal.Run
import proofs.«119507_g38517266711067_cont_8to1_b_469_14_alg».proof.Proof.Gen.ReferenceIdeal.Read
import proofs.«119507_g38517266711067_cont_8to1_b_469_14_alg».proof.Proof.Gen.Pre_finite_inputs
import proofs.«119507_g38517266711067_cont_8to1_b_469_14_alg».proof.Proof.KernelArray
import proofs.«119507_g38517266711067_cont_8to1_b_469_14_alg».proof.Proof.RefIsLayer
import Idealize.ShloMosaic.Adequacy
import Idealize.ShloMosaic.Init

noncomputable section

namespace Cert.Proof

open Idealize.ShloMosaic Idealize.SL.Sem

/-- The word-level kernel terminates with its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result array and the reference's both end at the layer
    of those arguments. -/
theorem algebraic : Cert.algebraic_KernelIdeal_ReferenceIdeal := by
  intro m ρ m' ρ' _ hagree
  refine ⟨fun c => Cert.GcnKernel.result m c, Cert.GcnKernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v13_eq, Cert.GcnRef.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
